-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x165 : Shape := ⟨2, ![200000, 165]⟩
abbrev S2x3200000 : Shape := ⟨2, ![2, 3200000]⟩
abbrev S165x64 : Shape := ⟨2, ![165, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x165 : S_.BroadcastsInDim S200000x165 (![] : Fin 0 → Fin S200000x165.rank)
  reducesTo_S200000x165_S_d0_1 : S200000x165.ReducesTo [0, 1] S_
  h_S_ : 0 < S_.numel
  bcast_S_S165x64 : S_.BroadcastsInDim S165x64 (![] : Fin 0 → Fin S165x64.rank)
  reducesTo_S165x64_S_d0_1 : S165x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64 .f32) (main_arg9 : FVec F S64x64 .f32) (main_arg10 : FVec F S64x1 .f32) (main_arg11 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64x64 .f32) (main_arg8 : FVec F S64 .f32) (main_arg9 : FVec F S64x64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S200000x165 .f32) (main_arg1 : IVec S2x3200000 32) (main_arg2 : FVec F S165x64 .f32) (main_arg3 : FVec F S64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x1 .f32) (main_arg11 : FVec F S1 .f32) : IVec S_ 1 :=
  let main_v0 : FVec F S200000x165 .f32 := Host.absf main_arg0
  let main_cst : FVec F S_ .f32 := constant S_ .f32 0x7F800000#32
  let main_v1 : FVec F S200000x165 .f32 := broadcastInDim S200000x165 ![] bcast_S_S200000x165 main_cst
  let main_v2 : IVec S200000x165 1 := cmpf .olt main_v0 main_v1
  let main_c : IVec S_ 1 := constantI S_ 1 1#1
  let main_v3 : IVec S_ 1 := (fun x v => Host.reduce IntOp.andi x v reducesTo_S200000x165_S_d0_1 h_S_) main_v2 main_c
  let main_v4 : FVec F S165x64 .f32 := Host.absf main_arg2
  let main_cst_0 : FVec F S_ .f32 := constant S_ .f32 0x7F800000#32
  let main_v5 : FVec F S165x64 .f32 := broadcastInDim S165x64 ![] bcast_S_S165x64 main_cst_0
  let main_v6 : IVec S165x64 1 := cmpf .olt main_v4 main_v5
  let main_c_1 : IVec S_ 1 := constantI S_ 1 1#1
  let main_v7 : IVec S_ 1 := (fun x v => Host.reduce IntOp.andi x v reducesTo_S165x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S200000x165 : Shape := ⟨2, ![200000, 165]⟩
abbrev S2x3200000 : Shape := ⟨2, ![2, 3200000]⟩
abbrev S165x64 : Shape := ⟨2, ![165, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S1x64 : Shape := ⟨2, ![1, 64]⟩
abbrev S1x1 : Shape := ⟨2, ![1, 1]⟩
abbrev S200000x64 : Shape := ⟨2, ![200000, 64]⟩
abbrev S4000x165 : Shape := ⟨2, ![4000, 165]⟩
abbrev S4000x64 : Shape := ⟨2, ![4000, 64]⟩
abbrev S_ : Shape := ⟨0, ![]⟩
abbrev S3200000x1 : Shape := ⟨2, ![3200000, 1]⟩
abbrev S3200000x64 : Shape := ⟨2, ![3200000, 64]⟩
abbrev S200000 : Shape := ⟨1, ![200000]⟩
abbrev S200000x1 : Shape := ⟨2, ![200000, 1]⟩
abbrev S4000x1 : Shape := ⟨2, ![4000, 1]⟩

abbrev nBuf : Space → Nat
  | .hbm => 74
  | .vmem => 26
  | .smem => 0
  | _ => 0

abbrev bufTy : (tb : Table) → Fin (tcTables nBuf tb) → BufTy
  | .hbm, ⟨0, _⟩ => ⟨S200000x165, .f32⟩
  | .hbm, ⟨1, _⟩ => ⟨S2x3200000, .i32⟩
  | .hbm, ⟨2, _⟩ => ⟨S165x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x1, .f32⟩
  | .hbm, ⟨20, _⟩ => ⟨S200000x64, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x64, .f32⟩
  | .hbm, ⟨30, _⟩ => ⟨S_, .f32⟩
  | .hbm, ⟨31, _⟩ => ⟨S200000x64, .f32⟩
  | .hbm, ⟨32, _⟩ => ⟨S3200000x1, .i32⟩
  | .hbm, ⟨33, _⟩ => ⟨S200000x64, .f32⟩
  | .hbm, ⟨34, _⟩ => ⟨S_, .f32⟩
  | .hbm, ⟨35, _⟩ => ⟨S3200000, .f32⟩
  | .hbm, ⟨36, _⟩ => ⟨S_, .f32⟩
  | .hbm, ⟨37, _⟩ => ⟨S200000, .f32⟩
  | .hbm, ⟨38, _⟩ => ⟨S3200000x1, .i32⟩
  | .hbm, ⟨39, _⟩ => ⟨S200000, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S200000x64, .f32⟩
  | .hbm, ⟨45, _⟩ => ⟨S200000x64, .f32⟩
  | .hbm, ⟨46, _⟩ => ⟨S200000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S_, .f32⟩
  | .hbm, ⟨57, _⟩ => ⟨S200000x64, .f32⟩
  | .hbm, ⟨58, _⟩ => ⟨S3200000x1, .i32⟩
  | .hbm, ⟨59, _⟩ => ⟨S200000x64, .f32⟩
  | .hbm, ⟨60, _⟩ => ⟨S_, .f32⟩
  | .hbm, ⟨61, _⟩ => ⟨S3200000, .f32⟩
  | .hbm, ⟨62, _⟩ => ⟨S_, .f32⟩
  | .hbm, ⟨63, _⟩ => ⟨S200000, .f32⟩
  | .hbm, ⟨64, _⟩ => ⟨S3200000x1, .i32⟩
  | .hbm, ⟨65, _⟩ => ⟨S200000, .f32⟩
  | .hbm, ⟨66, _⟩ => ⟨S_, .f32⟩
  | .hbm, ⟨67, _⟩ => ⟨S200000, .f32⟩
  | .hbm, ⟨68, _⟩ => ⟨S200000, .f32⟩
  | .hbm, ⟨69, _⟩ => ⟨S200000x1, .f32⟩
  | .hbm, ⟨70, _⟩ => ⟨S200000x64, .f32⟩
  | .hbm, ⟨71, _⟩ => ⟨S200000x64, .f32⟩
  | .hbm, ⟨72, _⟩ => ⟨S200000x1, .f32⟩
  | .hbm, ⟨73, _⟩ => ⟨S200000, .f32⟩
  | .local _ .vmem, ⟨0, _⟩ => ⟨S4000x165, .f32⟩
  | .local _ .vmem, ⟨1, _⟩ => ⟨S4000x165, .f32⟩
  | .local _ .vmem, ⟨2, _⟩ => ⟨S165x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S64x1, .f32⟩
  | .local _ .vmem, ⟨23, _⟩ => ⟨S1x1, .f32⟩
  | .local _ .vmem, ⟨24, _⟩ => ⟨S4000x1, .f32⟩
  | .local _ .vmem, ⟨25, _⟩ => ⟨S4000x1, .f32⟩
  | _, _ => ⟨S200000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  shapeCasts_S1_S1x1 : S1.ShapeCasts S1x1
  inb_S4000x165_S4000x165_0_0 : ∀ a, (![0, 0] : Fin 2 → Nat) a + S4000x165.size a ≤ S4000x165.size a
  h_S4000x165 : 0 < S4000x165.numel
  bitsLt_bf16_f32 : FTy.bits .bf16 < FTy.bits .f32
  inb_S165x64_S165x64_0_0 : ∀ a, (![0, 0] : Fin 2 → Nat) a + S165x64.size a ≤ S165x64.size a
  h_S165x64 : 0 < S165x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  dot_S4000x165_S165x64_S4000x64_1_0_0_1_n_n_wf : DotDims.WF S4000x165 S165x64 S4000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  scatter_S200000_S3200000x1_S3200000_n_0_0_1_wf : ScatterDims.WF S200000 S3200000x1 S3200000 [] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x165.size a ≤ S200000x165.size a
  hwx0_0 : ∀ i : grid0.Coords, EltTy.bits .f32 = 32 ∨ (Rect.block (s := S200000x165) S4000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x64.size a ≤ S165x64.size a
  hwx0_1 : ∀ i : grid0.Coords, EltTy.bits .f32 = 32 ∨ (Rect.block (s := S165x64) S165x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S200000x64.size a
  hwx0_3 : ∀ i : grid0.Coords, EltTy.bits .f32 = 32 ∨ (Rect.block (s := S200000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S200000x64.size a
  hwx1_5 : ∀ i : grid1.Coords, EltTy.bits .f32 = 32 ∨ (Rect.block (s := S200000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S200000x1.size a
  hwx2_7 : ∀ i : grid2.Coords, EltTy.bits .f32 = 32 ∨ (Rect.block (s := S200000x1) S4000x1.size (cc2_transform_7 i) (hinb2_7 i)).WholeWords (EltTy.packing .f32)

variable [Facts₀]

def dot_S4000x165_S165x64_S4000x64_1_0_0_1_n_n : DotDims S4000x165 S165x64 S4000x64 where
  lhsContracting := [1]
  rhsContracting := [0]
  lhsNonContracting := [0]
  rhsNonContracting := [1]
  lhsBatch := []
  rhsBatch := []
  wf := dot_S4000x165_S165x64_S4000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S200000x165 : Shape := ⟨2, ![200000, 165]⟩
abbrev S2x3200000 : Shape := ⟨2, ![2, 3200000]⟩
abbrev S165x64 : Shape := ⟨2, ![165, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S200000x64 : Shape := ⟨2, ![200000, 64]⟩
abbrev S1x64 : Shape := ⟨2, ![1, 64]⟩
abbrev S_ : Shape := ⟨0, ![]⟩
abbrev S3200000x1 : Shape := ⟨2, ![3200000, 1]⟩
abbrev S3200000x64 : Shape := ⟨2, ![3200000, 64]⟩
abbrev S200000 : Shape := ⟨1, ![200000]⟩
abbrev S200000x1 : Shape := ⟨2, ![200000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S200000x165, .f32⟩
  | .hbm, ⟨1, _⟩ => ⟨S2x3200000, .i32⟩
  | .hbm, ⟨2, _⟩ => ⟨S165x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S200000x64, .f32⟩
  | .hbm, ⟨17, _⟩ => ⟨S1x64, .f32⟩
  | .hbm, ⟨18, _⟩ => ⟨S200000x64, .f32⟩
  | .hbm, ⟨19, _⟩ => ⟨S200000x64, .f32⟩
  | .hbm, ⟨20, _⟩ => ⟨S_, .f32⟩
  | .hbm, ⟨21, _⟩ => ⟨S200000x64, .f32⟩
  | .hbm, ⟨22, _⟩ => ⟨S200000x64, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x64, .f32⟩
  | .hbm, ⟨32, _⟩ => ⟨S_, .f32⟩
  | .hbm, ⟨33, _⟩ => ⟨S200000x64, .f32⟩
  | .hbm, ⟨34, _⟩ => ⟨S3200000x1, .i32⟩
  | .hbm, ⟨35, _⟩ => ⟨S200000x64, .f32⟩
  | .hbm, ⟨36, _⟩ => ⟨S_, .f32⟩
  | .hbm, ⟨37, _⟩ => ⟨S3200000, .f32⟩
  | .hbm, ⟨38, _⟩ => ⟨S_, .f32⟩
  | .hbm, ⟨39, _⟩ => ⟨S200000, .f32⟩
  | .hbm, ⟨40, _⟩ => ⟨S3200000x1, .i32⟩
  | .hbm, ⟨41, _⟩ => ⟨S200000, .f32⟩
  | .hbm, ⟨42, _⟩ => ⟨S_, .f32⟩
  | .hbm, ⟨43, _⟩ => ⟨S200000, .f32⟩
  | .hbm, ⟨44, _⟩ => ⟨S200000, .f32⟩
  | .hbm, ⟨45, _⟩ => ⟨S200000x1, .f32⟩
  | .hbm, ⟨46, _⟩ => ⟨S200000x64, .f32⟩
  | .hbm, ⟨47, _⟩ => ⟨S200000x64, .f32⟩
  | .hbm, ⟨48, _⟩ => ⟨S200000x64, .f32⟩
  | .hbm, ⟨49, _⟩ => ⟨S1x64, .f32⟩
  | .hbm, ⟨50, _⟩ => ⟨S200000x64, .f32⟩
  | .hbm, ⟨51, _⟩ => ⟨S200000x64, .f32⟩
  | .hbm, ⟨52, _⟩ => ⟨S200000x64, .f32⟩
  | .hbm, ⟨53, _⟩ => ⟨S200000x64, .f32⟩
  | .hbm, ⟨54, _⟩ => ⟨S_, .f32⟩
  | .hbm, ⟨55, _⟩ => ⟨S200000x64, .f32⟩
  | .hbm, ⟨56, _⟩ => ⟨S200000x64, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x64, .f32⟩
  | .hbm, ⟨66, _⟩ => ⟨S_, .f32⟩
  | .hbm, ⟨67, _⟩ => ⟨S200000x64, .f32⟩
  | .hbm, ⟨68, _⟩ => ⟨S3200000x1, .i32⟩
  | .hbm, ⟨69, _⟩ => ⟨S200000x64, .f32⟩
  | .hbm, ⟨70, _⟩ => ⟨S_, .f32⟩
  | .hbm, ⟨71, _⟩ => ⟨S3200000, .f32⟩
  | .hbm, ⟨72, _⟩ => ⟨S_, .f32⟩
  | .hbm, ⟨73, _⟩ => ⟨S200000, .f32⟩
  | .hbm, ⟨74, _⟩ => ⟨S3200000x1, .i32⟩
  | .hbm, ⟨75, _⟩ => ⟨S200000, .f32⟩
  | .hbm, ⟨76, _⟩ => ⟨S_, .f32⟩
  | .hbm, ⟨77, _⟩ => ⟨S200000, .f32⟩
  | .hbm, ⟨78, _⟩ => ⟨S200000, .f32⟩
  | .hbm, ⟨79, _⟩ => ⟨S200000x1, .f32⟩
  | .hbm, ⟨80, _⟩ => ⟨S200000x64, .f32⟩
  | .hbm, ⟨81, _⟩ => ⟨S200000x64, .f32⟩
  | .hbm, ⟨82, _⟩ => ⟨S200000x64, .f32⟩
  | .hbm, ⟨83, _⟩ => ⟨S1x64, .f32⟩
  | .hbm, ⟨84, _⟩ => ⟨S200000x64, .f32⟩
  | .hbm, ⟨85, _⟩ => ⟨S200000x64, .f32⟩
  | .hbm, ⟨86, _⟩ => ⟨S200000x64, .f32⟩
  | .hbm, ⟨87, _⟩ => ⟨S200000x64, .f32⟩
  | .hbm, ⟨88, _⟩ => ⟨S_, .f32⟩
  | .hbm, ⟨89, _⟩ => ⟨S200000x64, .f32⟩
  | .hbm, ⟨90, _⟩ => ⟨S200000x64, .f32⟩
  | .hbm, ⟨91, _⟩ => ⟨S200000x1, .f32⟩
  | .hbm, ⟨92, _⟩ => ⟨S1x1, .f32⟩
  | .hbm, ⟨93, _⟩ => ⟨S200000x1, .f32⟩
  | .hbm, ⟨94, _⟩ => ⟨S200000x1, .f32⟩
  | .hbm, ⟨95, _⟩ => ⟨S200000, .f32⟩
  | _, _ => ⟨S200000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S200000x165_S165x64_S200000x64_1_0_0_1_n_n_wf : DotDims.WF S200000x165 S165x64 S200000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  scatter_S200000_S3200000x1_S3200000_n_0_0_1_wf : ScatterDims.WF S200000 S3200000x1 S3200000 [] [0] [0] 1
  dot_S200000x64_S64x64_S200000x64_1_0_0_1_n_n_wf : DotDims.WF S200000x64 S64x64 S200000x64 [1] [0] [0] [1] [] []
  dot_S200000x64_S64x1_S200000x1_1_0_0_1_n_n_wf : DotDims.WF S200000x64 S64x1 S200000x1 [1] [0] [0] [1] [] []

variable [Facts₀]

def dot_S200000x165_S165x64_S200000x64_1_0_0_1_n_n : DotDims S200000x165 S165x64 S200000x64 where
  lhsContracting := [1]
  rhsContracting := [0]
  lhsNonContracting := [0]
  rhsNonContracting := [1]
  lhsBatch := []
  rhsBatch := []
  wf := dot_S200000x165_S165x64_S200000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel program's run with its result named.

  The program is three pipelined regions among four stretches of host operations.  Every weakly fair execution of it
  terminates, nothing faulting; at the end the result buffer holds what the fold of the seven segments leaves there
  (the last stretch's operations applied to the third region's exit contents), and the twelve argument arrays are as
  launched.  This is the launch theorem for a list of segments applied to the program's own segments, read at the
  result buffer as well as at the arguments.
-/
import proofs.«151686_j1065151889634_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates with the result buffer at the last boundary's contents and the
    arguments unchanged. -/
theorem run_named : θ_run defs (onTc (τ := τ) (main (F := F))) ⟨m, fun _ => 0, ρ⟩ (fun r => ∀ c : Dev nD,
      r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Named

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«151686_j1065151889634_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«151686_j1065151889634_1_alg».proof.Proof.LibPlainMatmul
import proofs.«151686_j1065151889634_1_alg».proof.Proof.LibPlainDot
import proofs.«151686_j1065151889634_1_alg».proof.Proof.LibHostRows
import proofs.«151686_j1065151889634_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.Region0.lean ====
/-
  The first region computes the projection layer, max (x · W_proj + b_proj, 0), tile by tile.

  The grid has fifty points; point t loads rows 4000 t … 4000 t + 3999 of x, all of W_proj and the bias row, and
  writes the same rows of the output.  Whatever arrays the region is entered with, the tile written at point t is the
  restriction of ONE whole-array function of them, the projection layer: entry (p, q) of the tile is row 4000 t + p of
  x against column q of W_proj, plus the bias at q, rectified.  The fifty tiles cover the 200000 rows, so after the
  region the output array is the projection layer of the entry arrays.
-/
import proofs.«151686_j1065151889634_1_alg».proof.Proof.Gen.KernelIdeal.Frame
import proofs.«151686_j1065151889634_1_alg».proof.Proof.LibDenseLayers
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers

variable (V : (c : Dev nD) → (b : Ref sig .tc) → Buf (Elt Ideal) ((c : Thread nD τ).loc b))

/-- The body's loads and its store start at the tile's corner. -/
theorem hz : (![0, 0] : Fin 2 → Nat) = fun _ => 0 := funext fun a => by fin_cases a <;> rfl

/-- The body's stored value at an entry of its tile. -/
theorem pay_at (x0 : Vec Ideal S4000x165 .f32) (x1 : Vec Ideal S165x64 .f32) (x2 : Vec Ideal S1x64 .f32)
    (p : Fin 4000) (q : Fin 64) :
    k0_pay1 (F := Ideal) x0 x1 x2 (ix2 p q) = max (affineAt x0 x1 x2 p q) zeroF := by
  unfold k0_pay1
  exact congrArg (max · zeroF) (kernel_affine_at x0 x1 x2 _ _ _ _ p q)

/-- A tile entry against the whole layer: the three operand reads agree. -/
theorem blk_entry (X : S200000x165.Idx → EReal) (W : S165x64.Idx → EReal) (B : S1x64.Idx → EReal)
    (x0 : Vec Ideal S4000x165 .f32) (x1 : Vec Ideal S165x64 .f32) (x2 : Vec Ideal S1x64 .f32)
    (y : S4000x64.Idx) (i : S200000x64.Idx)
    (h0 : ∀ k : Fin 165, x0 (ix2 (y 0) k) = X (ix2 (i 0) k))
    (h1 : ∀ k : Fin 165, x1 (ix2 k (y 1)) = W (ix2 k (i 1)))
    (h2 : x2 (ix2 (0 : Fin 1) (y 1)) = B (ix2 (0 : Fin 1) (i 1))) :
    k0_pay1 (F := Ideal) x0 x1 x2 y = projLayer X W B i := by
  obtain ⟨p, q, rfl⟩ : ∃ (p : Fin 4000) (q : Fin 64), y = ix2 p q := ⟨y 0, y 1, eq_ix2 y⟩
  rw [pay_at]
  show max (affineAt x0 x1 x2 p q) zeroF = max (affineAt X W B (i 0) (i 1)) zeroF
  refine congrArg (max · zeroF) ?_
  unfold affineAt
  refine congrArg₂ (· + ·) (Finset.sum_congr rfl fun k _ => ?_) h2
  exact congrArg₂ (· * ·) (h0 k) (h1 k)

/-- The printed index maps over the grid: the row-tiled input moves with the output, the whole-array operands sit at
    block (0, 0), and the output's row-block index is the point's number. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point `t` writes back is its tile of the projection layer of the arrays the region was entered with. -/
theorem flushed_eq (c : Dev nD) (t : Fin cfg0.N) :
    (dat0 V c).flushed 3 t = ((cfg0.win 3).blk t).view.read (Elt Ideal)
      (projLayer (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S4000x165) hz, View.ld_unit_zero (S := S165x64) hz, View.ld_unit_zero (S := S1x64) hz]
  funext j
  show k0_pay1 (iblk0 V c 0 t) (iblk0 V c 1 t) (iblk0 V c 2 t) j
    = projLayer (V c main_arg0) (V c main_arg2) (V c main_v4) (((cfg0.win 3).blk t).view.emb j)
  obtain ⟨e0, e1, e2, e3, e4, e5, e6, e7⟩ := idx_facts t
  refine blk_entry (V c main_arg0) (V c main_arg2) (V c main_v4) (iblk0 V c 0 t) (iblk0 V c 1 t) (iblk0 V c 2 t) j
    (((cfg0.win 3).blk t).view.emb j) ?_ ?_ ?_
  · intro k
    show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 165 + 1 * k.val = k.val; omega
  · intro k
    show V c main_arg2 (((cfg0.win 1).blk t).view.emb (ix2 k (j 1))) = V c main_arg2 (ix2 k ((((cfg0.win 3).blk t).view.emb j) 1))
    refine congrArg (V c main_arg2) (funext fun a => Fin.ext ?_)
    match a with
    | ⟨0, _⟩ => show win0_1.index t (0 : Fin 2) * 165 + 1 * k.val = k.val; omega
    | ⟨1, _⟩ => show win0_1.index t (1 : Fin 2) * 64 + 1 * (j 1).val = win0_3.index t (1 : Fin 2) * 64 + 1 * (j 1).val; omega
  · show V c main_v4 (((cfg0.win 2).blk t).view.emb (ix2 (0 : Fin 1) (j 1))) = V c main_v4 (ix2 (0 : Fin 1) ((((cfg0.win 3).blk t).view.emb j) 1))
    refine congrArg (V c main_v4) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s tile iff each coordinate is in the tile's range on its axis. -/
theorem mem_blk (t : Fin cfg0.N) (i : S200000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v8).slice (win0_3.rect t)).set ↔ _
  rw [View.set_slice_whole, Rect.mem_set_unit]
  exact Iff.rfl

/-- Row r lies in the tile of point r / 4000: the fifty tiles of 4000 rows cover the 200000 rows. -/
theorem cover (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : grid0.N = 50 := N_0
  have hlt : (i 0).val / 4000 < grid0.N := by rw [hN]; omega
  obtain ⟨e0, e1, e2, e3, e4, e5, e6, e7⟩ := idx_facts ⟨(i 0).val / 4000, hlt⟩
  have e7' : win0_3.index ⟨(i 0).val / 4000, hlt⟩ (0 : Fin 2) = (i 0).val / 4000 := e7
  refine ⟨⟨(i 0).val / 4000, hlt⟩, flush0_3 _, ?_⟩
  rw [mem_blk]
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e7']; omega
  | ⟨1, _⟩ =>
    show win0_3.index ⟨(i 0).val / 4000, hlt⟩ (1 : Fin 2) * 64 ≤ (i 1).val
      ∧ (i 1).val < win0_3.index ⟨(i 0).val / 4000, hlt⟩ (1 : Fin 2) * 64 + 64
    rw [e6]; omega

/-- After the region the output array holds the whole projection layer of the arrays the region was entered with. -/
theorem final (c : Dev nD) :
    (dat0 V c).arrAt 3 cfg0.N = projLayer (V c main_arg0) (V c main_arg2) (V c main_v4) :=
  (dat0 V c).arrAt_eq_of_cover 3 _ (fun t _ => flushed_eq V c t) cover

end Cert.KernelIdeal.Region0

end
-- ==== Proof.Region1.lean ====
/-
  The second region computes the first neighbour layer, max ((a · W_l + b_l) + h · W_r, 0), tile by tile.

  Point t of the fifty loads rows 4000 t … 4000 t + 3999 of the aggregated features a and of the node features h, both
  weight matrices whole and the bias row, and writes the same rows of the output.  The tile written at point t is the
  restriction of one whole-array function of the entry arrays, and the fifty tiles cover the 200000 rows.
-/
import proofs.«151686_j1065151889634_1_alg».proof.Proof.Gen.KernelIdeal.Frame
import proofs.«151686_j1065151889634_1_alg».proof.Proof.LibDenseLayers
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers

variable (V : (c : Dev nD) → (b : Ref sig .tc) → Buf (Elt Ideal) ((c : Thread nD τ).loc b))

/-- The body's loads and its store start at the tile's corner. -/
theorem hz : (![0, 0] : Fin 2 → Nat) = fun _ => 0 := funext fun a => by fin_cases a <;> rfl

/-- The body's stored value at an entry of its tile. -/
theorem pay_at (x0 x1 : Vec Ideal S4000x64 .f32) (wl wr : Vec Ideal S64x64 .f32) (b : Vec Ideal S1x64 .f32)
    (p : Fin 4000) (q : Fin 64) :
    k1_pay1 (F := Ideal) x0 x1 wl wr b (ix2 p q) = max (affineAt x0 wl b p q + dotAt x1 wr p q) zeroF := by
  unfold k1_pay1
  refine congrArg (max · zeroF) ?_
  rw [addf_apply]
  refine congrArg₂ (· + ·) ?_ ?_
  · refine (kernel_affine_at (shapeCast S4000x64 x0 shapeCasts_S4000x64_S4000x64) wl b _ _ _ _ p q).trans ?_
    rw [shapeCast_self]
  · refine (kernel_dot_at (shapeCast S4000x64 x1 shapeCasts_S4000x64_S4000x64) wr _ _ p q).trans ?_
    rw [shapeCast_self]

/-- A tile entry against the whole layer: the five operand reads agree. -/
theorem blk_entry (A H : S200000x64.Idx → EReal) (Wl Wr : S64x64.Idx → EReal) (B : S1x64.Idx → EReal)
    (x0 x1 : Vec Ideal S4000x64 .f32) (wl wr : Vec Ideal S64x64 .f32) (b : Vec Ideal S1x64 .f32)
    (y : S4000x64.Idx) (i : S200000x64.Idx)
    (h0 : ∀ k : Fin 64, x0 (ix2 (y 0) k) = A (ix2 (i 0) k))
    (h1 : ∀ k : Fin 64, x1 (ix2 (y 0) k) = H (ix2 (i 0) k))
    (h2 : ∀ k : Fin 64, wl (ix2 k (y 1)) = Wl (ix2 k (i 1)))
    (h3 : ∀ k : Fin 64, wr (ix2 k (y 1)) = Wr (ix2 k (i 1)))
    (h4 : b (ix2 (0 : Fin 1) (y 1)) = B (ix2 (0 : Fin 1) (i 1))) :
    k1_pay1 (F := Ideal) x0 x1 wl wr b y = sageLayer A H Wl B Wr i := by
  obtain ⟨p, q, rfl⟩ : ∃ (p : Fin 4000) (q : Fin 64), y = ix2 p q := ⟨y 0, y 1, eq_ix2 y⟩
  rw [pay_at]
  show max (affineAt x0 wl b p q + dotAt x1 wr p q) zeroF
    = max (affineAt A Wl B (i 0) (i 1) + dotAt H Wr (i 0) (i 1)) zeroF
  refine congrArg (max · zeroF) ?_
  unfold affineAt dotAt
  refine congrArg₂ (· + ·) (congrArg₂ (· + ·) (Finset.sum_congr rfl fun k _ => ?_) h4) (Finset.sum_congr rfl fun k _ => ?_)
  · exact congrArg₂ (· * ·) (h0 k) (h2 k)
  · exact congrArg₂ (· * ·) (h1 k) (h3 k)

/-- The printed index maps over the grid: the two row-tiled inputs move with the output, the whole-array operands sit at
    block (0, 0), and the output's row-block index is the point's number. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

/-- What point `t` writes back is its tile of the neighbour layer of the arrays the region was entered with. -/
theorem flushed_eq (c : Dev nD) (t : Fin cfg1.N) :
    (dat1 V c).flushed 5 t = ((cfg1.win 5).blk t).view.read (Elt Ideal)
      (sageLayer (V c main_v27) (V c main_v8) (V c main_arg4) (V c main_v5) (V c main_arg6)) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x64) hz, View.ld_unit_zero (S := S1x64) hz]
  funext j
  show k1_pay1 (iblk1 V c 0 t) (iblk1 V c 1 t) (iblk1 V c 2 t) (iblk1 V c 4 t) (iblk1 V c 3 t) j
    = sageLayer (V c main_v27) (V c main_v8) (V c main_arg4) (V c main_v5) (V c main_arg6) (((cfg1.win 5).blk t).view.emb j)
  obtain ⟨e0, e1, e2, e3, e4, e5, e6, e7, e8, e9, e10, e11⟩ := idx_facts t
  refine blk_entry (V c main_v27) (V c main_v8) (V c main_arg4) (V c main_arg6) (V c main_v5)
    (iblk1 V c 0 t) (iblk1 V c 1 t) (iblk1 V c 2 t) (iblk1 V c 4 t) (iblk1 V c 3 t) j
    (((cfg1.win 5).blk t).view.emb j) ?_ ?_ ?_ ?_ ?_
  · intro k
    show V c main_v27 (((cfg1.win 0).blk t).view.emb (ix2 (j 0) k)) = V c main_v27 (ix2 ((((cfg1.win 5).blk t).view.emb j) 0) k)
    refine congrArg (V c main_v27) (funext fun a => Fin.ext ?_)
    match a with
    | ⟨0, _⟩ => show win1_0.index t (0 : Fin 2) * 4000 + 1 * (j 0).val = win1_5.index t (0 : Fin 2) * 4000 + 1 * (j 0).val; omega
    | ⟨1, _⟩ => show win1_0.index t (1 : Fin 2) * 64 + 1 * k.val = k.val; omega
  · intro k
    show V c main_v8 (((cfg1.win 1).blk t).view.emb (ix2 (j 0) k)) = V c main_v8 (ix2 ((((cfg1.win 5).blk t).view.emb j) 0) k)
    refine congrArg (V c main_v8) (funext fun a => Fin.ext ?_)
    match a with
    | ⟨0, _⟩ => show win1_1.index t (0 : Fin 2) * 4000 + 1 * (j 0).val = win1_5.index t (0 : Fin 2) * 4000 + 1 * (j 0).val; omega
    | ⟨1, _⟩ => show win1_1.index t (1 : Fin 2) * 64 + 1 * k.val = k.val; omega
  · intro k
    show V c main_arg4 (((cfg1.win 2).blk t).view.emb (ix2 k (j 1))) = V c main_arg4 (ix2 k ((((cfg1.win 5).blk t).view.emb j) 1))
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · intro k
    show V c main_arg6 (((cfg1.win 4).blk t).view.emb (ix2 k (j 1))) = V c main_arg6 (ix2 k ((((cfg1.win 5).blk t).view.emb j) 1))
    refine congrArg (V c main_arg6) (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  · show V c main_v5 (((cfg1.win 3).blk t).view.emb (ix2 (0 : Fin 1) (j 1))) = V c main_v5 (ix2 (0 : Fin 1) ((((cfg1.win 5).blk t).view.emb j) 1))
    refine congrArg (V c main_v5) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the output array is in point `t`'s tile iff each coordinate is in the tile's range on its axis. -/
theorem mem_blk (t : Fin cfg1.N) (i : S200000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v28).slice (win1_5.rect t)).set ↔ _
  rw [View.set_slice_whole, Rect.mem_set_unit]
  exact Iff.rfl

/-- Row r lies in the tile of point r / 4000: the fifty tiles of 4000 rows cover the 200000 rows. -/
theorem cover (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  have hN : grid1.N = 50 := N_1
  have hlt : (i 0).val / 4000 < grid1.N := by rw [hN]; omega
  obtain ⟨e0, e1, e2, e3, e4, e5, e6, e7, e8, e9, e10, e11⟩ := idx_facts ⟨(i 0).val / 4000, hlt⟩
  have e11' : win1_5.index ⟨(i 0).val / 4000, hlt⟩ (0 : Fin 2) = (i 0).val / 4000 := e11
  refine ⟨⟨(i 0).val / 4000, hlt⟩, flush1_5 _, ?_⟩
  rw [mem_blk]
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    rw [e11']; omega
  | ⟨1, _⟩ =>
    show win1_5.index ⟨(i 0).val / 4000, hlt⟩ (1 : Fin 2) * 64 ≤ (i 1).val
      ∧ (i 1).val < win1_5.index ⟨(i 0).val / 4000, hlt⟩ (1 : Fin 2) * 64 + 64
    rw [e10]; omega

/-- After the region the output array holds the whole neighbour layer of the arrays the region was entered with. -/
theorem final (c : Dev nD) :
    (dat1 V c).arrAt 5 cfg1.N = sageLayer (V c main_v27) (V c main_v8) (V c main_arg4) (V c main_v5) (V c main_arg6) :=
  (dat1 V c).arrAt_eq_of_cover 5 _ (fun t _ => flushed_eq V c t) cover

end Cert.KernelIdeal.Region1

end
-- ==== Proof.Region2.lean ====
/-
  The third region computes the second neighbour layer and the classifier on top of it, tile by tile:
  out = max ((a · W_l + b_l) + h · W_r, 0) · W_cls + b_cls, one column.

  Point t of the fifty loads rows 4000 t … 4000 t + 3999 of the aggregated features a and of the node features h, the
  three weight matrices whole and the two bias rows, and writes the same rows of the one-column output.  The rectified
  layer inside is the same expression as the second region's body; the classifier is one more product into the zero
  accumulator plus its bias.  The tile written at point t is the restriction of one whole-array function of the entry
  arrays, and the fifty tiles cover the 200000 rows.
-/
import proofs.«151686_j1065151889634_1_alg».proof.Proof.Gen.KernelIdeal.Frame
import proofs.«151686_j1065151889634_1_alg».proof.Proof.LibDenseLayers
import proofs.«151686_j1065151889634_1_alg».proof.Proof.Region1
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers

variable (V : (c : Dev nD) → (b : Ref sig .tc) → Buf (Elt Ideal) ((c : Thread nD τ).loc b))

/-- The body's loads and its store start at the tile's corner. -/
theorem hz : (![0, 0] : Fin 2 → Nat) = fun _ => 0 := funext fun a => by fin_cases a <;> rfl

/-- The body's stored value at an entry of its tile: the classifier row of the rectified layer's row. -/
theorem pay_at (x0 x1 : Vec Ideal S4000x64 .f32) (wl wr : Vec Ideal S64x64 .f32) (b : Vec Ideal S1x64 .f32)
    (wc : Vec Ideal S64x1 .f32) (bc : Vec Ideal S1x1 .f32) (p : Fin 4000) (u : Fin 1) :
    k2_pay1 (F := Ideal) x0 x1 wl wr b wc bc (ix2 p u)
      = affineAt (fun j : S4000x64.Idx => max (affineAt x0 wl b (j 0) (j 1) + dotAt x1 wr (j 0) (j 1)) zeroF) wc bc p u := by
  unfold k2_pay1
  refine (kernel_affine_at _ wc bc _ _ _ _ p u).trans ?_
  unfold affineAt
  refine congrArg₂ (· + ·) (Finset.sum_congr rfl fun k _ => congrArg₂ (· * ·) ?_ rfl) rfl
  exact Cert.KernelIdeal.Region1.pay_at x0 x1 wl wr b p k

/-- A tile entry against the whole function: the seven operand reads agree. -/
theorem blk_entry (A H : S200000x64.Idx → EReal) (Wl Wr : S64x64.Idx → EReal) (B : S1x64.Idx → EReal)
    (Wc : S64x1.Idx → EReal) (Bc : S1x1.Idx → EReal)
    (x0 x1 : Vec Ideal S4000x64 .f32) (wl wr : Vec Ideal S64x64 .f32) (b : Vec Ideal S1x64 .f32)
    (wc : Vec Ideal S64x1 .f32) (bc : Vec Ideal S1x1 .f32)
    (y : S4000x1.Idx) (i : S200000x1.Idx)
    (h0 : ∀ k : Fin 64, x0 (ix2 (y 0) k) = A (ix2 (i 0) k))
    (h1 : ∀ k : Fin 64, x1 (ix2 (y 0) k) = H (ix2 (i 0) k))
    (h2 : ∀ k g : Fin 64, wl (ix2 k g) = Wl (ix2 k g))
    (h3 : ∀ k g : Fin 64, wr (ix2 k g) = Wr (ix2 k g))
    (h4 : ∀ g : Fin 64, b (ix2 (0 : Fin 1) g) = B (ix2 (0 : Fin 1) g))
    (h5 : ∀ k : Fin 64, wc (ix2 k (y 1)) = Wc (ix2 k (i 1)))
    (h6 : bc (ix2 (0 : Fin 1) (y 1)) = Bc (ix2 (0 : Fin 1) (i 1))) :
    k2_pay1 (F := Ideal) x0 x1 wl wr b wc bc y = affLayer (sageLayer A H Wl B Wr) Wc Bc i := by
  obtain ⟨p, u, rfl⟩ : ∃ (p : Fin 4000) (u : Fin 1), y = ix2 p u := ⟨y 0, y 1, eq_ix2 y⟩
  rw [pay_at]
  show affineAt (fun j : S4000x64.Idx => max (affineAt x0 wl b (j 0) (j 1) + dotAt x1 wr (j 0) (j 1)) zeroF) wc bc p u
    = affineAt (sageLayer A H Wl B Wr) Wc Bc (i 0) (i 1)
  unfold affineAt
  refine congrArg₂ (· + ·) (Finset.sum_congr rfl fun k _ => congrArg₂ (· * ·) ?_ (h5 k)) h6
  show max ((∑ k' : Fin 64, x0 (ix2 p k') * wl (ix2 k' k)) + b (ix2 (0 : Fin 1) k) + dotAt x1 wr p k) zeroF
    = max ((∑ k' : Fin 64, A (ix2 (i 0) k') * Wl (ix2 k' k)) + B (ix2 (0 : Fin 1) k) + dotAt H Wr (i 0) k) zeroF
  refine congrArg (max · zeroF) ?_
  unfold dotAt
  refine congrArg₂ (· + ·) (congrArg₂ (· + ·) (Finset.sum_congr rfl fun k' _ => ?_) (h4 k)) (Finset.sum_congr rfl fun k' _ => ?_)
  · exact congrArg₂ (· * ·) (h0 k') (h2 k' k)
  · exact congrArg₂ (· * ·) (h1 k') (h3 k' k)

/-- The printed index maps over the grid: the two row-tiled inputs move with the output, the whole-array operands sit at
    block (0, 0), and the output's row-block index is the point's number. -/
theorem idx_facts : ∀ t : Fin cfg2.N, win2_0.index t (0 : Fin 2) = win2_7.index t (0 : Fin 2)
    ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) = t.val :=
  (by decide +kernel : ∀ t : Fin grid2.N, _)

/-- What point `t` writes back is its tile of the classifier over the neighbour layer of the entry arrays. -/
theorem flushed_eq (c : Dev nD) (t : Fin cfg2.N) :
    (dat2 V c).flushed 7 t = ((cfg2.win 7).blk t).view.read (Elt Ideal)
      (affLayer (sageLayer (V c main_v47) (V c main_v28) (V c main_arg7) (V c main_v6) (V c main_arg9))
        (V c main_arg10) (V c main_v7)) := by
  show (cfg2.win 7).cut (grid2.coords t) ((dat2 V c).after 7 t) = _
  rw [after2_7]
  unfold out2_7
  rw [View.canon_unit_zero hz]
  simp only [View.ld_unit_zero (S := S4000x64) hz, View.ld_unit_zero (S := S64x64) hz, View.ld_unit_zero (S := S1x64) hz,
    View.ld_unit_zero (S := S64x1) hz, View.ld_unit_zero (S := S1x1) hz]
  funext j
  show k2_pay1 (iblk2 V c 0 t) (iblk2 V c 1 t) (iblk2 V c 2 t) (iblk2 V c 4 t) (iblk2 V c 3 t) (iblk2 V c 5 t) (iblk2 V c 6 t) j
    = affLayer (sageLayer (V c main_v47) (V c main_v28) (V c main_arg7) (V c main_v6) (V c main_arg9))
        (V c main_arg10) (V c main_v7) (((cfg2.win 7).blk t).view.emb j)
  obtain ⟨e0, e1, e2, e3, e4, e5, e6, e7, e8, e9, e10, e11, e12, e13, e14, e15⟩ := idx_facts t
  refine blk_entry (V c main_v47) (V c main_v28) (V c main_arg7) (V c main_arg9) (V c main_v6) (V c main_arg10) (V c main_v7)
    (iblk2 V c 0 t) (iblk2 V c 1 t) (iblk2 V c 2 t) (iblk2 V c 4 t) (iblk2 V c 3 t) (iblk2 V c 5 t) (iblk2 V c 6 t) j
    (((cfg2.win 7).blk t).view.emb j) ?_ ?_ ?_ ?_ ?_ ?_ ?_
  · intro k
    show V c main_v47 (((cfg2.win 0).blk t).view.emb (ix2 (j 0) k)) = V c main_v47 (ix2 ((((cfg2.win 7).blk t).view.emb j) 0) k)
    refine congrArg (V c main_v47) (funext fun a => Fin.ext ?_)
    match a with
    | ⟨0, _⟩ => show win2_0.index t (0 : Fin 2) * 4000 + 1 * (j 0).val = win2_7.index t (0 : Fin 2) * 4000 + 1 * (j 0).val; omega
    | ⟨1, _⟩ => show win2_0.index t (1 : Fin 2) * 64 + 1 * k.val = k.val; omega
  · intro k
    show V c main_v28 (((cfg2.win 1).blk t).view.emb (ix2 (j 0) k)) = V c main_v28 (ix2 ((((cfg2.win 7).blk t).view.emb j) 0) k)
    refine congrArg (V c main_v28) (funext fun a => Fin.ext ?_)
    match a with
    | ⟨0, _⟩ => show win2_1.index t (0 : Fin 2) * 4000 + 1 * (j 0).val = win2_7.index t (0 : Fin 2) * 4000 + 1 * (j 0).val; omega
    | ⟨1, _⟩ => show win2_1.index t (1 : Fin 2) * 64 + 1 * k.val = k.val; omega
  · intro k g
    show V c main_arg7 (((cfg2.win 2).blk t).view.emb (ix2 k g)) = V c main_arg7 (ix2 k g)
    refine congrArg (V c main_arg7) (funext fun a => Fin.ext ?_)
    match a with
    | ⟨0, _⟩ => show win2_2.index t (0 : Fin 2) * 64 + 1 * k.val = k.val; omega
    | ⟨1, _⟩ => show win2_2.index t (1 : Fin 2) * 64 + 1 * g.val = g.val; omega
  · intro k g
    show V c main_arg9 (((cfg2.win 4).blk t).view.emb (ix2 k g)) = V c main_arg9 (ix2 k g)
    refine congrArg (V c main_arg9) (funext fun a => Fin.ext ?_)
    match a with
    | ⟨0, _⟩ => show win2_4.index t (0 : Fin 2) * 64 + 1 * k.val = k.val; omega
    | ⟨1, _⟩ => show win2_4.index t (1 : Fin 2) * 64 + 1 * g.val = g.val; omega
  · intro g
    show V c main_v6 (((cfg2.win 3).blk t).view.emb (ix2 (0 : Fin 1) g)) = V c main_v6 (ix2 (0 : Fin 1) g)
    refine congrArg (V c main_v6) (funext fun a => Fin.ext ?_)
    match a with
    | ⟨0, _⟩ => show win2_3.index t (0 : Fin 2) * 1 + 1 * 0 = 0; omega
    | ⟨1, _⟩ => show win2_3.index t (1 : Fin 2) * 64 + 1 * g.val = g.val; omega
  · intro k
    show V c main_arg10 (((cfg2.win 5).blk t).view.emb (ix2 k (j 1))) = V c main_arg10 (ix2 k ((((cfg2.win 7).blk t).view.emb j) 1))
    refine congrArg (V c main_arg10) (funext fun a => Fin.ext ?_)
    match a with
    | ⟨0, _⟩ => show win2_5.index t (0 : Fin 2) * 64 + 1 * k.val = k.val; omega
    | ⟨1, _⟩ => show win2_5.index t (1 : Fin 2) * 1 + 1 * (j 1).val = win2_7.index t (1 : Fin 2) * 1 + 1 * (j 1).val; omega
  · show V c main_v7 (((cfg2.win 6).blk t).view.emb (ix2 (0 : Fin 1) (j 1))) = V c main_v7 (ix2 (0 : Fin 1) ((((cfg2.win 7).blk t).view.emb j) 1))
    refine congrArg (V c main_v7) (funext fun a => Fin.ext ?_)
    match a with
    | ⟨0, _⟩ => show win2_6.index t (0 : Fin 2) * 1 + 1 * 0 = 0; omega
    | ⟨1, _⟩ => show win2_6.index t (1 : Fin 2) * 1 + 1 * (j 1).val = win2_7.index t (1 : Fin 2) * 1 + 1 * (j 1).val; omega

/-- An index of the output array is in point `t`'s tile iff each coordinate is in the tile's range on its axis. -/
theorem mem_blk (t : Fin cfg2.N) (i : S200000x1.Idx) :
    i ∈ ((cfg2.win 7).blk t).view.set ↔ ∀ a : Fin 2, win2_7.index t a * S4000x1.size a ≤ (i a).val
      ∧ (i a).val < win2_7.index t a * S4000x1.size a + S4000x1.size a := by
  show i ∈ ((View.whole main_v48).slice (win2_7.rect t)).set ↔ _
  rw [View.set_slice_whole, Rect.mem_set_unit]
  exact Iff.rfl

/-- Row r lies in the tile of point r / 4000: the fifty tiles of 4000 rows cover the 200000 rows. -/
theorem cover (i : S200000x1.Idx) :
    ∃ t : Fin cfg2.N, (cfg2.win 7).flush t = true ∧ i ∈ ((cfg2.win 7).blk t).view.set := by
  have hi0 : (i 0).val < 200000 := (i 0).isLt
  have hi1 : (i 1).val < 1 := (i 1).isLt
  have hN : grid2.N = 50 := N_2
  have hlt : (i 0).val / 4000 < grid2.N := by rw [hN]; omega
  obtain ⟨e0, e1, e2, e3, e4, e5, e6, e7, e8, e9, e10, e11, e12, e13, e14, e15⟩ := idx_facts ⟨(i 0).val / 4000, hlt⟩
  have e15' : win2_7.index ⟨(i 0).val / 4000, hlt⟩ (0 : Fin 2) = (i 0).val / 4000 := e15
  refine ⟨⟨(i 0).val / 4000, hlt⟩, flush2_7 _, ?_⟩
  rw [mem_blk]
  intro a
  match a with
  | ⟨0, _⟩ =>
    show win2_7.index ⟨(i 0).val / 4000, hlt⟩ (0 : Fin 2) * 4000 ≤ (i 0).val
      ∧ (i 0).val < win2_7.index ⟨(i 0).val / 4000, hlt⟩ (0 : Fin 2) * 4000 + 4000
    rw [e15']; omega
  | ⟨1, _⟩ =>
    show win2_7.index ⟨(i 0).val / 4000, hlt⟩ (1 : Fin 2) * 1 ≤ (i 1).val
      ∧ (i 1).val < win2_7.index ⟨(i 0).val / 4000, hlt⟩ (1 : Fin 2) * 1 + 1
    rw [e14]; omega

/-- After the region the output array holds the classifier over the neighbour layer of the entry arrays. -/
theorem final (c : Dev nD) :
    (dat2 V c).arrAt 7 cfg2.N
      = affLayer (sageLayer (V c main_v47) (V c main_v28) (V c main_arg7) (V c main_v6) (V c main_arg9))
          (V c main_arg10) (V c main_v7) :=
  (dat2 V c).arrAt_eq_of_cover 7 _ (fun t _ => flushed_eq V c t) cover

end Cert.KernelIdeal.Region2

end
-- ==== Proof.Aggr.lean ====
/-
  The mean of the incoming neighbours' feature rows, as the host computes it, named once.

  Both programs aggregate with the same chain of host operations: negative source indices are wrapped by the node
  count, the source rows are gathered, scatter-added onto their destination rows, and every destination row is divided
  by its in-degree (the scatter-added ones), the degree raised to at least one.  The chain is a function of the
  feature matrix and of the two index vectors only; the certificate compares the feature matrices that go in and
  never opens the chain.
-/
import proofs.«151686_j1065151889634_1_alg».proof.ReferenceIdeal
import proofs.«151686_j1065151889634_1_alg».proof.Proof.Gen.ReferenceIdeal

noncomputable section

namespace Cert.Sage

open Cert.ReferenceIdeal Cert.ReferenceIdeal.Gen Idealize.ShloMosaic

variable {F : FTy → Type} [FloatOps F]

/-- The neighbour mean of the rows of `h` along the edges `src → dst`. -/
def meanAggr (h : (⟨S200000x64, .f32⟩ : BufTy).Contents (Elt F)) (src dst : (⟨S3200000, .i32⟩ : BufTy).Contents (Elt F)) :
    (⟨S200000x64, .f32⟩ : BufTy).Contents (Elt F) :=
  Host.divf (Host.scatterAdd scatter_S200000x64_S3200000x1_S3200000x64_1_0_0_1 (broadcastInDim S200000x64 ![] bcast_S_S200000x64 (constant S_ .f32 0x00000000#32)) (broadcastInDim S3200000x1 ![0] bcast_S3200000_S3200000x1_0 dst) (Host.gather gather_S200000x64_S3200000x1_S3200000x64_1_0_n_n_0_1_164 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 200000#32))) src)))) (broadcastInDim S200000x64 ![0, 1] bcast_S200000x1_S200000x64_0_1 (broadcastInDim S200000x1 ![0] bcast_S200000_S200000x1_0 (maximumf (Host.scatterAdd scatter_S200000_S3200000x1_S3200000_n_0_0_1 (broadcastInDim S200000 ![] bcast_S_S200000 (constant S_ .f32 0x00000000#32)) (broadcastInDim S3200000x1 ![0] bcast_S3200000_S3200000x1_0 dst) (broadcastInDim S3200000 ![] bcast_S_S3200000 (constant S_ .f32 0x3F800000#32))) (broadcastInDim S200000 ![] bcast_S_S200000 (constant S_ .f32 0x3F800000#32)))))

end Cert.Sage

end
-- ==== Proof.KernelFold.lean ====
/-
  What the idealized kernel program leaves in its result buffer, as one function of the argument arrays.

  The program's run is a fold of seven segments over the device's buffers: a stretch of host operations (the two index
  rows cut out of the edge list, the four bias vectors kept as rows), the projection region, the neighbour mean of
  its output, the first neighbour-layer region, the neighbour mean of ITS output, the second neighbour-layer region
  with the classifier, and the final reshape to a vector.  Each region leaves its output array at the whole-array
  layer function of the arrays it was entered with; each host stretch leaves a buffer it writes at its operations'
  value and every other buffer as it was.  Walking the fold back from the result buffer to the launch memory gives the
  composition below.
-/
import proofs.«151686_j1065151889634_1_alg».proof.Proof.Gen.KernelIdeal.Frame
import proofs.«151686_j1065151889634_1_alg».proof.Proof.Region0
import proofs.«151686_j1065151889634_1_alg».proof.Proof.Region1
import proofs.«151686_j1065151889634_1_alg».proof.Proof.Region2
import proofs.«151686_j1065151889634_1_alg».proof.Proof.Aggr
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Cert.SageLayers Cert.Sage

variable (m : (ℓ : Loc nD τ sig) → Buf (Elt Ideal) ℓ) (ρ : Dev nD → PrngReg) (c : Dev nD)

/-! ## After the first host stretch -/

theorem w1_arg0 : W1 m ρ c (Proc.devRef .tc main_arg0) = m ((c : Thread nD τ).loc main_arg0) := by
  show StableHlo.after hostOps0 (W0 m ρ c) (Proc.devRef .tc main_arg0) = _
  after_results <;> rfl
theorem w1_arg2 : W1 m ρ c (Proc.devRef .tc main_arg2) = m ((c : Thread nD τ).loc main_arg2) := by
  show StableHlo.after hostOps0 (W0 m ρ c) (Proc.devRef .tc main_arg2) = _
  after_results <;> rfl
theorem w1_arg4 : W1 m ρ c (Proc.devRef .tc main_arg4) = m ((c : Thread nD τ).loc main_arg4) := by
  show StableHlo.after hostOps0 (W0 m ρ c) (Proc.devRef .tc main_arg4) = _
  after_results <;> rfl
theorem w1_arg6 : W1 m ρ c (Proc.devRef .tc main_arg6) = m ((c : Thread nD τ).loc main_arg6) := by
  show StableHlo.after hostOps0 (W0 m ρ c) (Proc.devRef .tc main_arg6) = _
  after_results <;> rfl
theorem w1_arg7 : W1 m ρ c (Proc.devRef .tc main_arg7) = m ((c : Thread nD τ).loc main_arg7) := by
  show StableHlo.after hostOps0 (W0 m ρ c) (Proc.devRef .tc main_arg7) = _
  after_results <;> rfl
theorem w1_arg9 : W1 m ρ c (Proc.devRef .tc main_arg9) = m ((c : Thread nD τ).loc main_arg9) := by
  show StableHlo.after hostOps0 (W0 m ρ c) (Proc.devRef .tc main_arg9) = _
  after_results <;> rfl
theorem w1_arg10 : W1 m ρ c (Proc.devRef .tc main_arg10) = m ((c : Thread nD τ).loc main_arg10) := by
  show StableHlo.after hostOps0 (W0 m ρ c) (Proc.devRef .tc main_arg10) = _
  after_results <;> rfl
theorem w1_v4 : W1 m ρ c (Proc.devRef .tc main_v4) = shapeCast S1x64 (m ((c : Thread nD τ).loc main_arg3)) shapeCasts_S64_S1x64 := by
  show StableHlo.after hostOps0 (W0 m ρ c) (Proc.devRef .tc main_v4) = _
  after_results <;> rfl
theorem w1_v5 : W1 m ρ c (Proc.devRef .tc main_v5) = shapeCast S1x64 (m ((c : Thread nD τ).loc main_arg5)) shapeCasts_S64_S1x64 := by
  show StableHlo.after hostOps0 (W0 m ρ c) (Proc.devRef .tc main_v5) = _
  after_results <;> rfl
theorem w1_v6 : W1 m ρ c (Proc.devRef .tc main_v6) = shapeCast S1x64 (m ((c : Thread nD τ).loc main_arg8)) shapeCasts_S64_S1x64 := by
  show StableHlo.after hostOps0 (W0 m ρ c) (Proc.devRef .tc main_v6) = _
  after_results <;> rfl
theorem w1_v7 : W1 m ρ c (Proc.devRef .tc main_v7) = shapeCast S1x1 (m ((c : Thread nD τ).loc main_arg11)) shapeCasts_S1_S1x1 := by
  show StableHlo.after hostOps0 (W0 m ρ c) (Proc.devRef .tc main_v7) = _
  after_results <;> rfl
theorem w1_v1 : W1 m ρ c (Proc.devRef .tc main_v1) = shapeCast S3200000 (extractStridedSlice S1x3200000 ![0, 0] (m ((c : Thread nD τ).loc main_arg1)) slices_S2x3200000_S1x3200000_0_0) shapeCasts_S1x3200000_S3200000 := by
  show StableHlo.after hostOps0 (W0 m ρ c) (Proc.devRef .tc main_v1) = _
  after_results <;> rfl
theorem w1_v3 : W1 m ρ c (Proc.devRef .tc main_v3) = shapeCast S3200000 (extractStridedSlice S1x3200000 ![1, 0] (m ((c : Thread nD τ).loc main_arg1)) slices_S2x3200000_S1x3200000_1_0) shapeCasts_S1x3200000_S3200000 := by
  show StableHlo.after hostOps0 (W0 m ρ c) (Proc.devRef .tc main_v3) = _
  after_results <;> rfl

/-! ## After the projection region -/

theorem w2_v8 : W2 m ρ c (Proc.devRef .tc main_v8) = projLayer (W1 m ρ c (Proc.devRef .tc main_arg0)) (W1 m ρ c (Proc.devRef .tc main_arg2)) (W1 m ρ c (Proc.devRef .tc main_v4)) :=
  (W2_arr m ρ c 3).trans (Cert.KernelIdeal.Region0.final (V1 m ρ) c)
theorem w2_v1 : W2 m ρ c (Proc.devRef .tc main_v1) = W1 m ρ c (Proc.devRef .tc main_v1) := W2_of_ne m ρ c main_v1 (by decide)
theorem w2_v3 : W2 m ρ c (Proc.devRef .tc main_v3) = W1 m ρ c (Proc.devRef .tc main_v3) := W2_of_ne m ρ c main_v3 (by decide)
theorem w2_arg4 : W2 m ρ c (Proc.devRef .tc main_arg4) = W1 m ρ c (Proc.devRef .tc main_arg4) := W2_of_ne m ρ c main_arg4 (by decide)
theorem w2_v5 : W2 m ρ c (Proc.devRef .tc main_v5) = W1 m ρ c (Proc.devRef .tc main_v5) := W2_of_ne m ρ c main_v5 (by decide)
theorem w2_arg6 : W2 m ρ c (Proc.devRef .tc main_arg6) = W1 m ρ c (Proc.devRef .tc main_arg6) := W2_of_ne m ρ c main_arg6 (by decide)
theorem w2_arg7 : W2 m ρ c (Proc.devRef .tc main_arg7) = W1 m ρ c (Proc.devRef .tc main_arg7) := W2_of_ne m ρ c main_arg7 (by decide)
theorem w2_v6 : W2 m ρ c (Proc.devRef .tc main_v6) = W1 m ρ c (Proc.devRef .tc main_v6) := W2_of_ne m ρ c main_v6 (by decide)
theorem w2_arg9 : W2 m ρ c (Proc.devRef .tc main_arg9) = W1 m ρ c (Proc.devRef .tc main_arg9) := W2_of_ne m ρ c main_arg9 (by decide)
theorem w2_arg10 : W2 m ρ c (Proc.devRef .tc main_arg10) = W1 m ρ c (Proc.devRef .tc main_arg10) := W2_of_ne m ρ c main_arg10 (by decide)
theorem w2_v7 : W2 m ρ c (Proc.devRef .tc main_v7) = W1 m ρ c (Proc.devRef .tc main_v7) := W2_of_ne m ρ c main_v7 (by decide)

/-! ## After the second host stretch -/

set_option maxHeartbeats 4000000 in
/-- The stretch's twenty-five operations, composed, are the neighbour mean of the features and the two index vectors it reads. -/
theorem w3_v27 : W3 m ρ c (Proc.devRef .tc main_v27) = meanAggr (W2 m ρ c (Proc.devRef .tc main_v8)) (W2 m ρ c (Proc.devRef .tc main_v1)) (W2 m ρ c (Proc.devRef .tc main_v3)) := by
  show StableHlo.after hostOps1 (W2 m ρ c) (Proc.devRef .tc main_v27) = _
  after_results_simp
  unfold meanAggr
  rfl
theorem w3_v8 : W3 m ρ c (Proc.devRef .tc main_v8) = W2 m ρ c (Proc.devRef .tc main_v8) := by
  show StableHlo.after hostOps1 (W2 m ρ c) (Proc.devRef .tc main_v8) = _
  after_results <;> rfl
theorem w3_v1 : W3 m ρ c (Proc.devRef .tc main_v1) = W2 m ρ c (Proc.devRef .tc main_v1) := by
  show StableHlo.after hostOps1 (W2 m ρ c) (Proc.devRef .tc main_v1) = _
  after_results <;> rfl
theorem w3_v3 : W3 m ρ c (Proc.devRef .tc main_v3) = W2 m ρ c (Proc.devRef .tc main_v3) := by
  show StableHlo.after hostOps1 (W2 m ρ c) (Proc.devRef .tc main_v3) = _
  after_results <;> rfl
theorem w3_arg4 : W3 m ρ c (Proc.devRef .tc main_arg4) = W2 m ρ c (Proc.devRef .tc main_arg4) := by
  show StableHlo.after hostOps1 (W2 m ρ c) (Proc.devRef .tc main_arg4) = _
  after_results <;> rfl
theorem w3_v5 : W3 m ρ c (Proc.devRef .tc main_v5) = W2 m ρ c (Proc.devRef .tc main_v5) := by
  show StableHlo.after hostOps1 (W2 m ρ c) (Proc.devRef .tc main_v5) = _
  after_results <;> rfl
theorem w3_arg6 : W3 m ρ c (Proc.devRef .tc main_arg6) = W2 m ρ c (Proc.devRef .tc main_arg6) := by
  show StableHlo.after hostOps1 (W2 m ρ c) (Proc.devRef .tc main_arg6) = _
  after_results <;> rfl
theorem w3_arg7 : W3 m ρ c (Proc.devRef .tc main_arg7) = W2 m ρ c (Proc.devRef .tc main_arg7) := by
  show StableHlo.after hostOps1 (W2 m ρ c) (Proc.devRef .tc main_arg7) = _
  after_results <;> rfl
theorem w3_v6 : W3 m ρ c (Proc.devRef .tc main_v6) = W2 m ρ c (Proc.devRef .tc main_v6) := by
  show StableHlo.after hostOps1 (W2 m ρ c) (Proc.devRef .tc main_v6) = _
  after_results <;> rfl
theorem w3_arg9 : W3 m ρ c (Proc.devRef .tc main_arg9) = W2 m ρ c (Proc.devRef .tc main_arg9) := by
  show StableHlo.after hostOps1 (W2 m ρ c) (Proc.devRef .tc main_arg9) = _
  after_results <;> rfl
theorem w3_arg10 : W3 m ρ c (Proc.devRef .tc main_arg10) = W2 m ρ c (Proc.devRef .tc main_arg10) := by
  show StableHlo.after hostOps1 (W2 m ρ c) (Proc.devRef .tc main_arg10) = _
  after_results <;> rfl
theorem w3_v7 : W3 m ρ c (Proc.devRef .tc main_v7) = W2 m ρ c (Proc.devRef .tc main_v7) := by
  show StableHlo.after hostOps1 (W2 m ρ c) (Proc.devRef .tc main_v7) = _
  after_results <;> rfl

/-! ## After the first neighbour-layer region -/

theorem w4_v28 : W4 m ρ c (Proc.devRef .tc main_v28) = sageLayer (W3 m ρ c (Proc.devRef .tc main_v27)) (W3 m ρ c (Proc.devRef .tc main_v8)) (W3 m ρ c (Proc.devRef .tc main_arg4)) (W3 m ρ c (Proc.devRef .tc main_v5)) (W3 m ρ c (Proc.devRef .tc main_arg6)) :=
  (W4_arr m ρ c 5).trans (Cert.KernelIdeal.Region1.final (V3 m ρ) c)
theorem w4_v1 : W4 m ρ c (Proc.devRef .tc main_v1) = W3 m ρ c (Proc.devRef .tc main_v1) := W4_of_ne m ρ c main_v1 (by decide)
theorem w4_v3 : W4 m ρ c (Proc.devRef .tc main_v3) = W3 m ρ c (Proc.devRef .tc main_v3) := W4_of_ne m ρ c main_v3 (by decide)
theorem w4_arg7 : W4 m ρ c (Proc.devRef .tc main_arg7) = W3 m ρ c (Proc.devRef .tc main_arg7) := W4_of_ne m ρ c main_arg7 (by decide)
theorem w4_v6 : W4 m ρ c (Proc.devRef .tc main_v6) = W3 m ρ c (Proc.devRef .tc main_v6) := W4_of_ne m ρ c main_v6 (by decide)
theorem w4_arg9 : W4 m ρ c (Proc.devRef .tc main_arg9) = W3 m ρ c (Proc.devRef .tc main_arg9) := W4_of_ne m ρ c main_arg9 (by decide)
theorem w4_arg10 : W4 m ρ c (Proc.devRef .tc main_arg10) = W3 m ρ c (Proc.devRef .tc main_arg10) := W4_of_ne m ρ c main_arg10 (by decide)
theorem w4_v7 : W4 m ρ c (Proc.devRef .tc main_v7) = W3 m ρ c (Proc.devRef .tc main_v7) := W4_of_ne m ρ c main_v7 (by decide)

/-! ## After the third host stretch -/

set_option maxHeartbeats 4000000 in
/-- The stretch's twenty-five operations, composed, are the neighbour mean of the features and the two index vectors it reads. -/
theorem w5_v47 : W5 m ρ c (Proc.devRef .tc main_v47) = meanAggr (W4 m ρ c (Proc.devRef .tc main_v28)) (W4 m ρ c (Proc.devRef .tc main_v1)) (W4 m ρ c (Proc.devRef .tc main_v3)) := by
  show StableHlo.after hostOps2 (W4 m ρ c) (Proc.devRef .tc main_v47) = _
  after_results_simp
  unfold meanAggr
  rfl
theorem w5_v28 : W5 m ρ c (Proc.devRef .tc main_v28) = W4 m ρ c (Proc.devRef .tc main_v28) := by
  show StableHlo.after hostOps2 (W4 m ρ c) (Proc.devRef .tc main_v28) = _
  after_results <;> rfl
theorem w5_arg7 : W5 m ρ c (Proc.devRef .tc main_arg7) = W4 m ρ c (Proc.devRef .tc main_arg7) := by
  show StableHlo.after hostOps2 (W4 m ρ c) (Proc.devRef .tc main_arg7) = _
  after_results <;> rfl
theorem w5_v6 : W5 m ρ c (Proc.devRef .tc main_v6) = W4 m ρ c (Proc.devRef .tc main_v6) := by
  show StableHlo.after hostOps2 (W4 m ρ c) (Proc.devRef .tc main_v6) = _
  after_results <;> rfl
theorem w5_arg9 : W5 m ρ c (Proc.devRef .tc main_arg9) = W4 m ρ c (Proc.devRef .tc main_arg9) := by
  show StableHlo.after hostOps2 (W4 m ρ c) (Proc.devRef .tc main_arg9) = _
  after_results <;> rfl
theorem w5_arg10 : W5 m ρ c (Proc.devRef .tc main_arg10) = W4 m ρ c (Proc.devRef .tc main_arg10) := by
  show StableHlo.after hostOps2 (W4 m ρ c) (Proc.devRef .tc main_arg10) = _
  after_results <;> rfl
theorem w5_v7 : W5 m ρ c (Proc.devRef .tc main_v7) = W4 m ρ c (Proc.devRef .tc main_v7) := by
  show StableHlo.after hostOps2 (W4 m ρ c) (Proc.devRef .tc main_v7) = _
  after_results <;> rfl

/-! ## After the last region, and the result -/

theorem w6_v48 : W6 m ρ c (Proc.devRef .tc main_v48)
    = affLayer (sageLayer (W5 m ρ c (Proc.devRef .tc main_v47)) (W5 m ρ c (Proc.devRef .tc main_v28)) (W5 m ρ c (Proc.devRef .tc main_arg7)) (W5 m ρ c (Proc.devRef .tc main_v6)) (W5 m ρ c (Proc.devRef .tc main_arg9)))
        (W5 m ρ c (Proc.devRef .tc main_arg10)) (W5 m ρ c (Proc.devRef .tc main_v7)) :=
  (W6_arr m ρ c 7).trans (Cert.KernelIdeal.Region2.final (V5 m ρ) c)

theorem w7_v49 : W7 m ρ c (Proc.devRef .tc main_v49) = shapeCast S200000 (W6 m ρ c (Proc.devRef .tc main_v48)) shapeCasts_S200000x1_S200000 := by
  show StableHlo.after hostOps3 (W6 m ρ c) (Proc.devRef .tc main_v49) = _
  after_results <;> rfl

end Cert.KernelIdeal.Fold

end
-- ==== Proof.KernelClosed.lean ====
/-
  The kernel program's result as one closed function of the argument arrays: the fold of its seven segments, walked
  back from the result buffer to the launch memory.

  h0 = max (x · W_proj + b_proj, 0);  h1 = max ((mean (h0) · W1_l + b1_l) + h0 · W1_r, 0);
  out = (max ((mean (h1) · W2_l + b2_l) + h1 · W2_r, 0)) · W_cls + b_cls, as a vector —
  mean the neighbour mean along the edge list, the bias vectors kept as rows.
-/
import proofs.«151686_j1065151889634_1_alg».proof.Proof.KernelFold

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Cert.SageLayers Cert.Sage

variable (m : (ℓ : Loc nD τ sig) → Buf (Elt Ideal) ℓ) (ρ : Dev nD → PrngReg) (c : Dev nD)

/-- The edges' source nodes, cut out of the edge list. -/
def srcK : (⟨S3200000, .i32⟩ : BufTy).Contents (Elt Ideal) :=
  shapeCast S3200000 (extractStridedSlice S1x3200000 ![0, 0] (m ((c : Thread nD τ).loc main_arg1)) slices_S2x3200000_S1x3200000_0_0) shapeCasts_S1x3200000_S3200000
/-- The edges' destination nodes. -/
def dstK : (⟨S3200000, .i32⟩ : BufTy).Contents (Elt Ideal) :=
  shapeCast S3200000 (extractStridedSlice S1x3200000 ![1, 0] (m ((c : Thread nD τ).loc main_arg1)) slices_S2x3200000_S1x3200000_1_0) shapeCasts_S1x3200000_S3200000
/-- The node features after the projection. -/
def featK0 : S200000x64.Idx → EReal :=
  projLayer (m ((c : Thread nD τ).loc main_arg0)) (m ((c : Thread nD τ).loc main_arg2)) (shapeCast S1x64 (m ((c : Thread nD τ).loc main_arg3)) shapeCasts_S64_S1x64)
/-- The node features after the first neighbour layer. -/
def featK1 : S200000x64.Idx → EReal :=
  sageLayer (meanAggr (featK0 m c) (srcK m c) (dstK m c)) (featK0 m c) (m ((c : Thread nD τ).loc main_arg4))
    (shapeCast S1x64 (m ((c : Thread nD τ).loc main_arg5)) shapeCasts_S64_S1x64) (m ((c : Thread nD τ).loc main_arg6))
/-- The node features after the second neighbour layer. -/
def featK2 : S200000x64.Idx → EReal :=
  sageLayer (meanAggr (featK1 m c) (srcK m c) (dstK m c)) (featK1 m c) (m ((c : Thread nD τ).loc main_arg7))
    (shapeCast S1x64 (m ((c : Thread nD τ).loc main_arg8)) shapeCasts_S64_S1x64) (m ((c : Thread nD τ).loc main_arg9))
/-- The program's result. -/
def resK : S200000.Idx → EReal :=
  shapeCast S200000 (affLayer (featK2 m c) (m ((c : Thread nD τ).loc main_arg10)) (shapeCast S1x1 (m ((c : Thread nD τ).loc main_arg11)) shapeCasts_S1_S1x1))
    shapeCasts_S200000x1_S200000

set_option maxHeartbeats 4000000 in
/-- The result buffer after the last segment holds that function of the launch contents. -/
theorem result_eq : W7 m ρ c (Proc.devRef .tc main_v49) = resK m c := by
  rw [w7_v49, w6_v48, w5_v47, w5_v28, w5_arg7, w5_v6, w5_arg9, w5_arg10, w5_v7, w4_v28, w4_v1, w4_v3, w4_arg7, w4_v6, w4_arg9, w4_arg10, w4_v7, w3_v27, w3_v8, w3_arg4, w3_v5, w3_arg6, w3_v1, w3_v3, w3_arg7, w3_v6, w3_arg9, w3_arg10, w3_v7, w2_v8, w2_v1, w2_v3, w2_arg4, w2_v5, w2_arg6, w2_arg7, w2_v6, w2_arg9, w2_arg10, w2_v7, w1_arg0, w1_arg2, w1_v4, w1_v1, w1_v3, w1_arg4, w1_v5, w1_arg6, w1_arg7, w1_v6, w1_arg9, w1_arg10, w1_v7]
  rfl

end Cert.KernelIdeal.Fold

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«151686_j1065151889634_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.RefValue.lean ====
/-
  What the reference program leaves in its result buffer, as the same composition of layer functions and neighbour
  means as the kernel program's.

  The reference is one straight line of host operations.  Its result is a projection layer, two rounds of
  "neighbour mean, then neighbour layer", and a classifier, reshaped to a vector; each layer in the host's spelling is
  the layer function (LibHostLayers), and the neighbour mean is the shared chain of host operations, left closed.
-/
import proofs.«151686_j1065151889634_1_alg».proof.Proof.Gen.ReferenceIdeal.Run
import proofs.«151686_j1065151889634_1_alg».proof.Proof.LibHostLayers
import proofs.«151686_j1065151889634_1_alg».proof.Proof.Aggr

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.SageLayers Cert.Sage

/-- The projection layer as the reference spells it. -/
def hostProj (x : FVec Ideal S200000x165 .f32) (w : FVec Ideal S165x64 .f32)
    (b : FVec Ideal S64 .f32) : FVec Ideal S200000x64 .f32 :=
  maximumf (F := Ideal) (addf (F := Ideal) (Host.dotGeneral (F := Ideal) dot_S200000x165_S165x64_S200000x64_1_0_0_1_n_n none x w) (broadcastInDim S200000x64 ![0, 1] bcast_S1x64_S200000x64_0_1 (broadcastInDim S1x64 ![1] bcast_S64_S1x64_1 b))) (broadcastInDim S200000x64 ![] bcast_S_S200000x64 (constant (F := Ideal) S_ .f32 0x00000000#32))

/-- A neighbour layer as the reference spells it. -/
def hostSage (a h : FVec Ideal S200000x64 .f32) (wl : FVec Ideal S64x64 .f32)
    (b : FVec Ideal S64 .f32) (wr : FVec Ideal S64x64 .f32) :
    FVec Ideal S200000x64 .f32 :=
  maximumf (F := Ideal) (addf (F := Ideal) (addf (F := Ideal) (Host.dotGeneral (F := Ideal) dot_S200000x64_S64x64_S200000x64_1_0_0_1_n_n none a wl) (broadcastInDim S200000x64 ![0, 1] bcast_S1x64_S200000x64_0_1 (broadcastInDim S1x64 ![1] bcast_S64_S1x64_1 b))) (Host.dotGeneral (F := Ideal) dot_S200000x64_S64x64_S200000x64_1_0_0_1_n_n none h wr)) (broadcastInDim S200000x64 ![] bcast_S_S200000x64 (constant (F := Ideal) S_ .f32 0x00000000#32))

/-- The classifier as the reference spells it. -/
def hostCls (h : FVec Ideal S200000x64 .f32) (wc : FVec Ideal S64x1 .f32)
    (bc : FVec Ideal S1 .f32) : FVec Ideal S200000x1 .f32 :=
  addf (F := Ideal) (Host.dotGeneral (F := Ideal) dot_S200000x64_S64x1_S200000x1_1_0_0_1_n_n none h wc) (broadcastInDim S200000x1 ![0, 1] bcast_S1x1_S200000x1_0_1 (broadcastInDim S1x1 ![1] bcast_S1_S1x1_1 bc))

variable (m : (ℓ : Loc nD τ sig) → Buf (Elt Ideal) ℓ) (c : Dev nD)

/-- The edges' source nodes. -/
def src : (⟨S3200000, .i32⟩ : BufTy).Contents (Elt Ideal) :=
  shapeCast _ (extractStridedSlice S1x3200000 ![0, 0] (m ((c.tc : Thread nD τ).loc main_arg1)) slices_S2x3200000_S1x3200000_0_0) shapeCasts_S1x3200000_S3200000
/-- The edges' destination nodes. -/
def dst : (⟨S3200000, .i32⟩ : BufTy).Contents (Elt Ideal) :=
  shapeCast _ (extractStridedSlice S1x3200000 ![1, 0] (m ((c.tc : Thread nD τ).loc main_arg1)) slices_S2x3200000_S1x3200000_1_0) shapeCasts_S1x3200000_S3200000

/-- The node features after the projection. -/
def feat0 : FVec Ideal S200000x64 .f32 :=
  hostProj (m ((c.tc : Thread nD τ).loc main_arg0)) (m ((c.tc : Thread nD τ).loc main_arg2)) (m ((c.tc : Thread nD τ).loc main_arg3))
/-- The node features after the first neighbour layer. -/
def feat1 : FVec Ideal S200000x64 .f32 :=
  hostSage (meanAggr (feat0 m c) (src m c) (dst m c)) (feat0 m c) (m ((c.tc : Thread nD τ).loc main_arg4)) (m ((c.tc : Thread nD τ).loc main_arg5)) (m ((c.tc : Thread nD τ).loc main_arg6))
/-- The node features after the second neighbour layer. -/
def feat2 : FVec Ideal S200000x64 .f32 :=
  hostSage (meanAggr (feat1 m c) (src m c) (dst m c)) (feat1 m c) (m ((c.tc : Thread nD τ).loc main_arg7)) (m ((c.tc : Thread nD τ).loc main_arg8)) (m ((c.tc : Thread nD τ).loc main_arg9))

set_option maxHeartbeats 4000000 in
/-- The reference's result term is that composition, read off its text. -/
theorem res_eq_host : res_main_v65 (F := Ideal) m c
    = shapeCast _ (hostCls (feat2 m c) (m ((c.tc : Thread nD τ).loc main_arg10)) (m ((c.tc : Thread nD τ).loc main_arg11))) shapeCasts_S200000x1_S200000 := by
  unfold res_main_v65 feat2 feat1 feat0 src dst hostCls hostSage hostProj meanAggr
  rfl

/-- The projection layer in the host's spelling is the layer function. -/
theorem hostProj_eq (x : FVec Ideal S200000x165 .f32) (w : FVec Ideal S165x64 .f32)
    (b : FVec Ideal S64 .f32) :
    hostProj x w b = projLayer x w (broadcastInDim S1x64 ![1] bcast_S64_S1x64_1 b) := by
  unfold hostProj
  exact host_proj_eq x w b ![1] rfl bcast_S64_S1x64_1 ![0, 1] rfl rfl bcast_S1x64_S200000x64_0_1 ![] bcast_S_S200000x64

/-- A neighbour layer in the host's spelling is the layer function. -/
theorem hostSage_eq (a h : FVec Ideal S200000x64 .f32) (wl : FVec Ideal S64x64 .f32)
    (b : FVec Ideal S64 .f32) (wr : FVec Ideal S64x64 .f32) :
    hostSage a h wl b wr = sageLayer a h wl (broadcastInDim S1x64 ![1] bcast_S64_S1x64_1 b) wr := by
  unfold hostSage
  exact host_sage_eq a h wl b wr ![1] rfl bcast_S64_S1x64_1 ![0, 1] rfl rfl bcast_S1x64_S200000x64_0_1 ![] bcast_S_S200000x64

/-- The classifier in the host's spelling is the layer function. -/
theorem hostCls_eq (h : FVec Ideal S200000x64 .f32) (wc : FVec Ideal S64x1 .f32)
    (bc : FVec Ideal S1 .f32) :
    hostCls h wc bc = affLayer h wc (broadcastInDim S1x1 ![1] bcast_S1_S1x1_1 bc) := by
  unfold hostCls
  exact host_aff_eq h wc bc ![1] rfl bcast_S1_S1x1_1 ![0, 1] rfl rfl bcast_S1x1_S200000x1_0_1

end Cert.ReferenceIdeal.RefValue

end
-- ==== Proof.lean ====
/-
  The certificate of the two-layer neighbour-mean network: the kernel program (three pipelined regions — the
  projection layer, the first neighbour layer, the second neighbour layer fused with the classifier — among host
  operations that cut the edge list and take the neighbour means) against the reference (one line of host operations).

  On the extended reals a change of float format is the identity and a matrix product, whether a tile's product into a
  zero accumulator or the host's dot_general over all rows, is the plain sum over the contracted axis.  So every
  region's output array is the reference's layer of the arrays the region is entered with (Region0 … Region2, LibHostLayers),
  the neighbour mean between two layers is the SAME chain of host operations in both programs (Aggr, never opened), and the
  two results are one composition of the argument arrays (KernelClosed, RefValue).  No algebraic law beyond that is used,
  and the precondition is not opened.

  The three frames are the programs' runs: the two kernel programs' launch over their segments, and the reference's run
  with the result dropped.  The idealization rewrote nothing, so what it preserves is trivial.
-/
import proofs.«151686_j1065151889634_1_alg».proof.Defs
import proofs.«151686_j1065151889634_1_alg».proof.Proof.Gen.Kernel
import proofs.«151686_j1065151889634_1_alg».proof.Proof.Gen.Kernel.Skeleton
import proofs.«151686_j1065151889634_1_alg».proof.Proof.Gen.Kernel.Launch
import proofs.«151686_j1065151889634_1_alg».proof.Proof.Gen.Kernel.Points
import proofs.«151686_j1065151889634_1_alg».proof.Proof.Gen.Kernel.Frame
import proofs.«151686_j1065151889634_1_alg».proof.Proof.Gen.KernelIdeal
import proofs.«151686_j1065151889634_1_alg».proof.Proof.Gen.KernelIdeal.Skeleton
import proofs.«151686_j1065151889634_1_alg».proof.Proof.Gen.KernelIdeal.Launch
import proofs.«151686_j1065151889634_1_alg».proof.Proof.Gen.KernelIdeal.Points
import proofs.«151686_j1065151889634_1_alg».proof.Proof.Gen.KernelIdeal.Frame
import proofs.«151686_j1065151889634_1_alg».proof.Proof.Gen.ReferenceIdeal
import proofs.«151686_j1065151889634_1_alg».proof.Proof.Gen.Pre_finite_inputs
import proofs.«151686_j1065151889634_1_alg».proof.Proof.Gen.ReferenceIdeal.Run
import proofs.«151686_j1065151889634_1_alg».proof.Proof.KernelRun
import proofs.«151686_j1065151889634_1_alg».proof.Proof.KernelClosed
import proofs.«151686_j1065151889634_1_alg».proof.Proof.RefValue
import Idealize.ShloMosaic.Adequacy
import Idealize.ShloMosaic.Init

set_option maxRecDepth 16384

noncomputable section

namespace Cert.Proof

open Idealize.ShloMosaic Idealize.SL.Sem Idealize.ShloMosaic.TcCoe
open Cert.SageLayers Cert.Sage Cert.ReferenceIdeal.RefValue Cert.KernelIdeal.Fold

/-- From memories that agree on the twelve arguments the reference's result term is the kernel program's closed form:
    layer by layer, the host's spelling is the layer function, the bias row is the same row however it was made, and
    the neighbour mean is applied to equal features. -/
theorem ref_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v65 (F := Ideal) m' c = resK m c := by
  obtain ⟨a0, a1, a2, a3, a4, a5, a6, a7, a8, a9, a10, a11⟩ := hagree
  have es : src m' c = srcK m c := by unfold src srcK; rw [a1]
  have ed : dst m' c = dstK m c := by unfold dst dstK; rw [a1]
  have e0 : feat0 m' c = featK0 m c := by
    unfold feat0 featK0
    rw [hostProj_eq, a0, a2, a3,
      row_of_vector (m ((c.tc : Thread Cert.KernelIdeal.nD Cert.KernelIdeal.τ).loc Cert.KernelIdeal.main_arg3)) ![1] rfl Cert.ReferenceIdeal.Gen.bcast_S64_S1x64_1 Cert.KernelIdeal.Gen.shapeCasts_S64_S1x64]
  have e1 : feat1 m' c = featK1 m c := by
    unfold feat1 featK1
    rw [hostSage_eq, e0, es, ed, a4, a5, a6,
      row_of_vector (m ((c.tc : Thread Cert.KernelIdeal.nD Cert.KernelIdeal.τ).loc Cert.KernelIdeal.main_arg5)) ![1] rfl Cert.ReferenceIdeal.Gen.bcast_S64_S1x64_1 Cert.KernelIdeal.Gen.shapeCasts_S64_S1x64]
  have e2 : feat2 m' c = featK2 m c := by
    unfold feat2 featK2
    rw [hostSage_eq, e1, es, ed, a7, a8, a9,
      row_of_vector (m ((c.tc : Thread Cert.KernelIdeal.nD Cert.KernelIdeal.τ).loc Cert.KernelIdeal.main_arg8)) ![1] rfl Cert.ReferenceIdeal.Gen.bcast_S64_S1x64_1 Cert.KernelIdeal.Gen.shapeCasts_S64_S1x64]
  rw [res_eq_host, hostCls_eq, e2, a10, a11,
    row_of_vector (m ((c.tc : Thread Cert.KernelIdeal.nD Cert.KernelIdeal.τ).loc Cert.KernelIdeal.main_arg11)) ![1] rfl Cert.ReferenceIdeal.Gen.bcast_S1_S1x1_1 Cert.KernelIdeal.Gen.shapeCasts_S1_S1x1]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, and end with the kernel program's closed form in their result buffers. -/
theorem algebraic : Cert.algebraic_KernelIdeal_ReferenceIdeal := by
  intro m ρ m' ρ' _ hagree
  refine ⟨fun c => resK m c, ?_, ?_⟩
  · exact (θ_run Cert.KernelIdeal.defs _ _).mono
      (fun r h c => ⟨(h c).1.trans (Cert.KernelIdeal.Fold.result_eq m ρ c), (h c).2⟩)
      (Cert.KernelIdeal.Named.run_named (F := Ideal) m ρ)
  · exact (θ_run Cert.ReferenceIdeal.defs _ _).mono
      (fun r h c => ⟨(h c).1.trans (ref_result m m' c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
